-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x384 : Shape := ⟨2, ![128, 384]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x600000 32) (main_arg2 : FVec F S128x384 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x384 .f32 := Host.absf main_arg2
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x600000 : Shape := ⟨2, ![2, 600000]⟩
abbrev S128x384 : Shape := ⟨2, ![128, 384]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S384x128 : Shape := ⟨2, ![384, 128]⟩
abbrev S128x128 : Shape := ⟨2, ![128, 128]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 55
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x384, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .f32⟩
  | .hbm, ⟨9, _⟩ => ⟨S600000, .f32⟩
  | .hbm, ⟨10, _⟩ => ⟨S_, .f32⟩
  | .hbm, ⟨11, _⟩ => ⟨S50000, .f32⟩
  | .hbm, ⟨12, _⟩ => ⟨S600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000x1, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S_, .f32⟩
  | .hbm, ⟨28, _⟩ => ⟨S50000x128, .f32⟩
  | .hbm, ⟨29, _⟩ => ⟨S600000x1, .i32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S384x128, .f32⟩
  | .hbm, ⟨47, _⟩ => ⟨S128x128, .f32⟩
  | .hbm, ⟨48, _⟩ => ⟨S128x128, .bf16⟩
  | .hbm, ⟨49, _⟩ => ⟨S128x128, .f32⟩
  | .hbm, ⟨50, _⟩ => ⟨S128x128, .bf16⟩
  | .hbm, ⟨51, _⟩ => ⟨S128x128, .f32⟩
  | .hbm, ⟨52, _⟩ => ⟨S128x128, .bf16⟩
  | .hbm, ⟨53, _⟩ => ⟨S1x128, .f32⟩
  | .hbm, ⟨54, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x384_S384x128_1_0 : S128x384.Transposes [1, 0] S384x128
  slices_S384x128_S128x128_0_0 : S384x128.Slices ![0, 0] S128x128
  bitsLt_bf16_f32 : FTy.bits .bf16 < FTy.bits .f32
  slices_S384x128_S128x128_128_0 : S384x128.Slices ![128, 0] S128x128
  slices_S384x128_S128x128_256_0 : S384x128.Slices ![256, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x384 : Shape := ⟨2, ![128, 384]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x384 : Shape := ⟨2, ![50000, 384]⟩
abbrev S384x128 : Shape := ⟨2, ![384, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x384, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S50000x128, .f32⟩
  | .hbm, ⟨19, _⟩ => ⟨S600000x1, .i32⟩
  | .hbm, ⟨20, _⟩ => ⟨S50000x128, .f32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S50000, .f32⟩
  | .hbm, ⟨25, _⟩ => ⟨S600000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S1x600000, .i32⟩
  | .hbm, ⟨34, _⟩ => ⟨S600000, .i32⟩
  | .hbm, ⟨35, _⟩ => ⟨S1x600000, .i32⟩
  | .hbm, ⟨36, _⟩ => ⟨S600000, .i32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | .hbm, ⟨50, _⟩ => ⟨S_, .f32⟩
  | .hbm, ⟨51, _⟩ => ⟨S600000, .f32⟩
  | .hbm, ⟨52, _⟩ => ⟨S_, .f32⟩
  | .hbm, ⟨53, _⟩ => ⟨S50000, .f32⟩
  | .hbm, ⟨54, _⟩ => ⟨S600000x1, .i32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S50000x384, .f32⟩
  | .hbm, ⟨63, _⟩ => ⟨S384x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  transposes_S128x384_S384x128_1_0 : S128x384.Transposes [1, 0] S384x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x384_S384x128_S50000x128_1_0_0_1_n_n_wf : DotDims.WF S50000x384 S384x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.BlockReads.lean ====
/-
  Each window's block at a grid point, as entries of the array the window is cut from.

  The grid has 25 points. At point t the three row sources (x, the one-hop mean, the two-hop sum) and the count column
  are cut at block row t — rows 2000t … 2000t+1999 —, while the three weight blocks and the bias row are given whole at
  every point.
  The reads are stated for ANY array of the window's shape: they are facts about where a block sits, not about what
  the array holds.
-/
import proofs.«148852_j936302871073_2_alg».proof.Proof.Gen.KernelIdeal.Value
import Idealize.ShloMosaic.Lib.Pipeline.Value
import Idealize.ShloMosaic.Lib.ValueIdx
import Idealize.ShloMosaic.PureOps.Ideal

noncomputable section

namespace Cert.KernelIdeal.Tile

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point t, decided over the 25 points: the output, the three row sources and the
    count column are at block row t, block column 0; the weight blocks and the bias row are always block (0, 0). -/
theorem block_places : ∀ t : Fin cfg0.N,
    win0_8.index t (0 : Fin 2) = t.val ∧ win0_8.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## Each window's block as entries of the array it is cut from -/

/-- Point t's block of an array cut like x: rows 2000t … 2000t+1999 of it. -/
theorem rows0 (A : S50000x128.Idx → Elt Ideal .f32) (t : Fin cfg0.N) (p : Fin 2000) (k : Fin 128) (r : Fin 50000)
    (hr : r.val = t.val * 2000 + p.val) :
    ((cfg0.win 0).blk t).view.read (Elt Ideal) A (ix2 p k) = A (ix2 r k) := by
  have e := block_places t
  rw [View.read_apply]
  refine congrArg A (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Point t's block of an array cut like the one-hop mean: rows 2000t … 2000t+1999 of it. -/
theorem rows1 (A : S50000x128.Idx → Elt Ideal .f32) (t : Fin cfg0.N) (p : Fin 2000) (k : Fin 128) (r : Fin 50000)
    (hr : r.val = t.val * 2000 + p.val) :
    ((cfg0.win 1).blk t).view.read (Elt Ideal) A (ix2 p k) = A (ix2 r k) := by
  have e := block_places t
  rw [View.read_apply]
  refine congrArg A (funext fun a => Fin.ext ?_)
  match a with
  | ⟨0, _⟩ => show win0_1.index t (0 : Fin 2) * 2000 + 1 * p.val = r.val; omega
  | ⟨1, _⟩ => show win0_1.index t (1 : Fin 2) * 128 + 1 * k.val = k.val; omega

/-- Point t's block of an array cut like the two-hop sum: rows 2000t … 2000t+1999 of it. -/
theorem rows2 (A : S50000x128.Idx → Elt Ideal .f32) (t : Fin cfg0.N) (p : Fin 2000) (k : Fin 128) (r : Fin 50000)
    (hr : r.val = t.val * 2000 + p.val) :
    ((cfg0.win 2).blk t).view.read (Elt Ideal) A (ix2 p k) = A (ix2 r k) := by
  have e := block_places t
  rw [View.read_apply]
  refine congrArg A (funext fun a => Fin.ext ?_)
  match a with
  | ⟨0, _⟩ => show win0_2.index t (0 : Fin 2) * 2000 + 1 * p.val = r.val; omega
  | ⟨1, _⟩ => show win0_2.index t (1 : Fin 2) * 128 + 1 * k.val = k.val; omega

/-- Point t's block of a column cut like the count column: rows 2000t … 2000t+1999 of it. -/
theorem rows3 (A : S50000x1.Idx → Elt Ideal .f32) (t : Fin cfg0.N) (p : Fin 2000) (r : Fin 50000)
    (hr : r.val = t.val * 2000 + p.val) :
    ((cfg0.win 3).blk t).view.read (Elt Ideal) A (ix2 p (0 : Fin 1)) = A (ix2 r (0 : Fin 1)) := by
  have e := block_places t
  rw [View.read_apply]
  refine congrArg A (funext fun a => Fin.ext ?_)
  match a with
  | ⟨0, _⟩ => show win0_3.index t (0 : Fin 2) * 2000 + 1 * p.val = r.val; omega
  | ⟨1, _⟩ => show win0_3.index t (1 : Fin 2) * 1 + 1 * 0 = 0; omega

/-- At every point the block of an array cut like the first weight block is the whole of it. -/
theorem whole4 (A : S128x128.Idx → Elt Ideal .bf16) (t : Fin cfg0.N) (k q : Fin 128) :
    ((cfg0.win 4).blk t).view.read (Elt Ideal) A (ix2 k q) = A (ix2 k q) := by
  have e := block_places t
  rw [View.read_apply]
  refine congrArg A (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- At every point the block of an array cut like the second weight block is the whole of it. -/
theorem whole5 (A : S128x128.Idx → Elt Ideal .bf16) (t : Fin cfg0.N) (k q : Fin 128) :
    ((cfg0.win 5).blk t).view.read (Elt Ideal) A (ix2 k q) = A (ix2 k q) := by
  have e := block_places t
  rw [View.read_apply]
  refine congrArg A (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

/-- At every point the block of an array cut like the third weight block is the whole of it. -/
theorem whole6 (A : S128x128.Idx → Elt Ideal .bf16) (t : Fin cfg0.N) (k q : Fin 128) :
    ((cfg0.win 6).blk t).view.read (Elt Ideal) A (ix2 k q) = A (ix2 k q) := by
  have e := block_places t
  rw [View.read_apply]
  refine congrArg A (funext fun a => Fin.ext ?_)
  match a with
  | ⟨0, _⟩ => show win0_6.index t (0 : Fin 2) * 128 + 1 * k.val = k.val; omega
  | ⟨1, _⟩ => show win0_6.index t (1 : Fin 2) * 128 + 1 * q.val = q.val; omega

/-- At every point the block of a one-row matrix cut like the bias row is the whole of it. -/
theorem whole7 (A : S1x128.Idx → Elt Ideal .f32) (t : Fin cfg0.N) (q : Fin 128) :
    ((cfg0.win 7).blk t).view.read (Elt Ideal) A (ix2 (0 : Fin 1) q) = A (ix2 (0 : Fin 1) q) := by
  have e := block_places t
  rw [View.read_apply]
  refine congrArg A (funext fun a => Fin.ext ?_)
  match a with
  | ⟨0, _⟩ => show win0_7.index t (0 : Fin 2) * 1 + 1 * 0 = 0; omega
  | ⟨1, _⟩ => show win0_7.index t (1 : Fin 2) * 128 + 1 * q.val = q.val; omega

end Cert.KernelIdeal.Tile

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«148852_j936302871073_2_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.Payload.lean ====
/-
  The value the tile body stores, read at an entry.

  The body loads a 2000-row block of x, of the one-hop mean h and of the two-hop sum s, the matching 2000 x 1 block of
  neighbour counts d, the three 128 x 128 weight blocks and the 1 x 128 bias row. It narrows the row blocks' format (no
  change of value over the extended reals), divides s by d repeated along each row, multiplies each row block into a
  zero accumulator by its weight block, adds the three products left to right and adds the bias repeated down the
  rows. Entry (p, q) of what it stores is therefore
      ((∑ k, x(p,k)·W₁(k,q) + ∑ k, h(p,k)·W₂(k,q)) + ∑ k, (s(p,k)/d(p,0))·W₃(k,q)) + b(0,q).
-/
import proofs.«148852_j936302871073_2_alg».proof.Proof.Gen.KernelIdeal.Skeleton
import proofs.«148852_j936302871073_2_alg».proof.Proof.LibRank2
import proofs.«148852_j936302871073_2_alg».proof.Proof.LibKeepdims
import Idealize.ShloMosaic.PureOps.Ideal

noncomputable section

namespace Cert.KernelIdeal.Tile

open Cert.KernelIdeal Cert.KernelIdeal.Gen Idealize.ShloMosaic Idealize.ShloMosaic.ValueIdx

/-- One product of a row block with a weight block, at an entry: the plain contraction over the 128 shared places. -/
theorem product_apply (a : FVec Ideal S2000x128 .bf16) (w : FVec Ideal S128x128 .bf16) (p : Fin 2000) (q : Fin 128) :
    matmul dot_S2000x128_S128x128_S2000x128_1_0_0_1_n_n none a (shapeCast S128x128 w shapeCasts_S128x128_S128x128)
        (constant (F := Ideal) S2000x128 .f32 0x00000000#32) (ix2 p q)
      = ∑ k : Fin 128, a (ix2 p k) * w (ix2 k q) :=
  (Cert.MatmulAt.matmul_zero_plain_apply dot_S2000x128_S128x128_S2000x128_1_0_0_1_n_n_wf none a _ p q).trans
    (Finset.sum_congr rfl fun k _ => by rw [shapeCast_self])

/-- The quotient of the two-hop sum by the count column repeated along the row, at an entry. -/
theorem quotient_apply (s : FVec Ideal S2000x128 .f32) (d : FVec Ideal S2000x1 .f32) (p : Fin 2000) (k : Fin 128) :
    divf (shapeCast S2000x128 s shapeCasts_S2000x128_S2000x128)
        (broadcastTo S2000x128 (shapeCast S2000x1 d shapeCasts_S2000x1_S2000x1) broadcasts_S2000x1_S2000x128) (ix2 p k)
      = Ideal.div (s (ix2 p k)) (d (ix2 p (0 : Fin 1))) := by
  show Ideal.div (shapeCast S2000x128 s shapeCasts_S2000x128_S2000x128 (ix2 p k))
      (broadcastTo S2000x128 (shapeCast S2000x1 d shapeCasts_S2000x1_S2000x1) broadcasts_S2000x1_S2000x128 (ix2 p k)) = _
  rw [Cert.Keepdims.broadcastTo_a1_ab_apply, shapeCast_self, shapeCast_self]

/-- The bias row repeated down the rows, at an entry. -/
theorem bias_apply (b : FVec Ideal S1x128 .f32) (p : Fin 2000) (q : Fin 128) :
    broadcastTo S2000x128 (shapeCast S1x128 (shapeCast S1x128 b shapeCasts_S1x128_S1x128) shapeCasts_S1x128_S1x128)
        broadcasts_S1x128_S2000x128 (ix2 p q) = b (ix2 (0 : Fin 1) q) :=
  (Cert.Rank2.rowBias_vec_apply _ shapeCasts_S1x128_S1x128 broadcasts_S1x128_S2000x128 p q).trans (by rw [shapeCast_self])

/-- The stored value at entry (p, q). -/
theorem stored_apply (x h s : FVec Ideal S2000x128 .f32) (d : FVec Ideal S2000x1 .f32)
    (w₁ w₂ w₃ : FVec Ideal S128x128 .bf16) (b : FVec Ideal S1x128 .f32) (p : Fin 2000) (q : Fin 128) :
    k0_pay1 (F := Ideal) x h s d w₁ w₂ w₃ b (ix2 p q)
      = ((∑ k : Fin 128, x (ix2 p k) * w₁ (ix2 k q) + ∑ k : Fin 128, h (ix2 p k) * w₂ (ix2 k q))
          + ∑ k : Fin 128, Ideal.div (s (ix2 p k)) (d (ix2 p (0 : Fin 1))) * w₃ (ix2 k q))
        + b (ix2 (0 : Fin 1) q) := by
  have e₁ := product_apply (truncf .bf16 x bitsLt_bf16_f32) w₁ p q
  have e₂ : matmul dot_S2000x128_S128x128_S2000x128_1_0_0_1_n_n none
        (truncf .bf16 (shapeCast S2000x128 h shapeCasts_S2000x128_S2000x128) bitsLt_bf16_f32)
        (shapeCast S128x128 w₂ shapeCasts_S128x128_S128x128) (constant (F := Ideal) S2000x128 .f32 0x00000000#32) (ix2 p q)
      = ∑ k : Fin 128, h (ix2 p k) * w₂ (ix2 k q) :=
    (product_apply _ w₂ p q).trans (Finset.sum_congr rfl fun k _ => by
      show shapeCast S2000x128 h shapeCasts_S2000x128_S2000x128 (ix2 p k) * _ = _
      rw [shapeCast_self])
  have e₃ : matmul dot_S2000x128_S128x128_S2000x128_1_0_0_1_n_n none
        (truncf .bf16 (divf (shapeCast S2000x128 s shapeCasts_S2000x128_S2000x128)
          (broadcastTo S2000x128 (shapeCast S2000x1 d shapeCasts_S2000x1_S2000x1) broadcasts_S2000x1_S2000x128)) bitsLt_bf16_f32)
        (shapeCast S128x128 w₃ shapeCasts_S128x128_S128x128) (constant (F := Ideal) S2000x128 .f32 0x00000000#32) (ix2 p q)
      = ∑ k : Fin 128, Ideal.div (s (ix2 p k)) (d (ix2 p (0 : Fin 1))) * w₃ (ix2 k q) :=
    (product_apply _ w₃ p q).trans (Finset.sum_congr rfl fun k _ =>
      congrArg (· * w₃ (ix2 k q)) (quotient_apply s d p k))
  have e₄ := bias_apply b p q
  unfold k0_pay1
  exact congrArg₂ (· + ·) (congrArg₂ (· + ·) (congrArg₂ (· + ·) e₁ e₂) e₃) e₄

end Cert.KernelIdeal.Tile

end
-- ==== Proof.Layer.lean ====
/-
  One output entry of the two-hop layer, in the arrangement the tile body computes it.

  Row p of the output is  x(p,·)·W₁ + h(p,·)·W₂ + (s(p,·)/d(p))·W₃ + b : three products of a 128-entry row with a
  128 x 128 weight block, added left to right, then the bias. Here x, h and s are the node features, their one-hop mean
  and the two-hop neighbour sum, d the column of neighbour counts (already at least 1), and the quotient is taken
  entry by entry before the third product. Stated over the extended reals with plain finite sums.
-/
import Idealize.ShloMosaic.PureOps.Ideal
import Idealize.ShloMosaic.Lib.ValueIdx

noncomputable section

namespace Cert.TwoHop

open Idealize.ShloMosaic Idealize.ShloMosaic.ValueIdx

/-- Entry i = (p, q) of the layer from the three row sources, the count column, the three weight blocks and the bias row. -/
def layer (x h s : (⟨2, ![50000, 128]⟩ : Shape).Idx → EReal) (d : (⟨2, ![50000, 1]⟩ : Shape).Idx → EReal)
    (w₁ w₂ w₃ : (⟨2, ![128, 128]⟩ : Shape).Idx → EReal) (b : (⟨2, ![1, 128]⟩ : Shape).Idx → EReal) :
    (⟨2, ![50000, 128]⟩ : Shape).Idx → EReal := fun i =>
  ((∑ k : Fin 128, x (ix2 (i 0) k) * w₁ (ix2 k (i 1)) + ∑ k : Fin 128, h (ix2 (i 0) k) * w₂ (ix2 k (i 1)))
    + ∑ k : Fin 128, Ideal.div (s (ix2 (i 0) k)) (d (ix2 (i 0) (0 : Fin 1))) * w₃ (ix2 k (i 1)))
  + b (ix2 (0 : Fin 1) (i 1))

theorem layer_apply (x h s : (⟨2, ![50000, 128]⟩ : Shape).Idx → EReal) (d : (⟨2, ![50000, 1]⟩ : Shape).Idx → EReal)
    (w₁ w₂ w₃ : (⟨2, ![128, 128]⟩ : Shape).Idx → EReal) (b : (⟨2, ![1, 128]⟩ : Shape).Idx → EReal)
    (p : Fin 50000) (q : Fin 128) :
    layer x h s d w₁ w₂ w₃ b (ix2 p q)
      = ((∑ k : Fin 128, x (ix2 p k) * w₁ (ix2 k q) + ∑ k : Fin 128, h (ix2 p k) * w₂ (ix2 k q))
          + ∑ k : Fin 128, Ideal.div (s (ix2 p k)) (d (ix2 p (0 : Fin 1))) * w₃ (ix2 k q))
        + b (ix2 (0 : Fin 1) q) := rfl

end Cert.TwoHop

end
-- ==== Proof.WriteBack.lean ====
/-
  What a grid point writes back.

  Row r = 2000t + p of the output depends only on row r of x, of the one-hop mean, of the two-hop sum and of the count
  column, and on the whole weight blocks and bias row. Point t holds exactly those rows, so what it writes back is rows
  2000t … 2000t+1999 of ONE function of the whole arrays (`Cert.TwoHop.layer`). The step from the block to the arrays
  is stated for ANY eight arrays of the windows' shapes — it only uses where the blocks sit — and then read at the
  arrays the call is given.
-/
import proofs.«148852_j936302871073_2_alg».proof.Proof.BlockReads
import proofs.«148852_j936302871073_2_alg».proof.Proof.Payload
import proofs.«148852_j936302871073_2_alg».proof.Proof.Layer

noncomputable section

namespace Cert.KernelIdeal.Tile

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-- Entry (p, q) of what the body stores at point t, from the point's blocks of any eight arrays, is entry (2000t + p, q)
    of the layer of those arrays. -/
theorem stored_eq (A₀ A₁ A₂ : S50000x128.Idx → Elt Ideal .f32) (A₃ : S50000x1.Idx → Elt Ideal .f32)
    (A₄ A₅ A₆ : S128x128.Idx → Elt Ideal .bf16) (A₇ : S1x128.Idx → Elt Ideal .f32)
    (t : Fin cfg0.N) (p : Fin 2000) (q : Fin 128) (r : Fin 50000) (hr : r.val = t.val * 2000 + p.val) :
    k0_pay1 (F := Ideal) (((cfg0.win 0).blk t).view.read (Elt Ideal) A₀) (((cfg0.win 1).blk t).view.read (Elt Ideal) A₁)
      (((cfg0.win 2).blk t).view.read (Elt Ideal) A₂) (((cfg0.win 3).blk t).view.read (Elt Ideal) A₃)
      (((cfg0.win 4).blk t).view.read (Elt Ideal) A₄) (((cfg0.win 5).blk t).view.read (Elt Ideal) A₅)
      (((cfg0.win 6).blk t).view.read (Elt Ideal) A₆) (((cfg0.win 7).blk t).view.read (Elt Ideal) A₇) (ix2 p q)
      = Cert.TwoHop.layer A₀ A₁ A₂ A₃ A₄ A₅ A₆ A₇ (ix2 r q) := by
  refine (stored_apply _ _ _ _ _ _ _ _ p q).trans ?_
  refine Eq.trans ?_ (Cert.TwoHop.layer_apply A₀ A₁ A₂ A₃ A₄ A₅ A₆ A₇ r q).symm
  exact congrArg₂ (· + ·) (congrArg₂ (· + ·) (congrArg₂ (· + ·)
      (Finset.sum_congr rfl fun k _ => congrArg₂ (· * ·) (rows0 A₀ t p k r hr) (whole4 A₄ t k q))
      (Finset.sum_congr rfl fun k _ => congrArg₂ (· * ·) (rows1 A₁ t p k r hr) (whole5 A₅ t k q)))
      (Finset.sum_congr rfl fun k _ => congrArg₂ (· * ·)
        (congrArg₂ Ideal.div (rows2 A₂ t p k r hr) (rows3 A₃ t p r hr)) (whole6 A₆ t k q)))
    (whole7 A₇ t q)

end Cert.KernelIdeal.Tile

end
-- ==== Proof.Cover.lean ====
/-
  From what each point writes back to the whole output array, and the kernel's run.

  Point t writes rows 2000t … 2000t+1999 of the output; those rows are the same rows of ONE function of the arrays the
  call is given (`outArray`: `Cert.TwoHop.layer` of them). Row r lies in the block of point r / 2000, so the 25 blocks
  cover the output, which therefore ends holding `outArray`.
-/
import proofs.«148852_j936302871073_2_alg».proof.Proof.WriteBack
import Idealize.ShloMosaic.Lib.Pipeline.Value

noncomputable section

namespace Cert.KernelIdeal.Tile

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- If entry (p, q) of what the body stores at point t is entry (2000t + p, q) of an array G, then what point t writes
    back is its block of G. -/
theorem flushed_of (c : Dev nD) (t : Fin cfg0.N) (G : S50000x128.Idx → Elt Ideal .f32)
    (hG : ∀ (p : Fin 2000) (q : Fin 128) (r : Fin 50000), r.val = t.val * 2000 + p.val →
      k0_pay1 (F := Ideal) (iblk m c 0 t) (iblk m c 1 t) (iblk m c 2 t) (iblk m c 3 t) (iblk m c 4 t) (iblk m c 5 t)
        (iblk m c 6 t) (iblk m c 7 t) (ix2 p q) = G (ix2 r q)) :
    (dats m 0 c).flushed 8 t = ((cfg0.win 8).blk t).view.read (Elt Ideal) G := by
  rw [flushed8]
  unfold out0_8
  rw [View.canon_unit_zero hz]
  simp only [View.ld_unit_zero (S := S2000x128) hz, View.ld_unit_zero (S := S2000x1) hz, View.ld_unit_zero (S := S128x128) hz,
    View.ld_unit_zero (S := S1x128) hz]
  funext j
  have e := block_places t
  have hN : cfg0.N = 25 := N_0
  have hj0 : (j 0).val < 2000 := (j 0).isLt
  have hj1 : (j 1).val < 128 := (j 1).isLt
  have ht : t.val < 25 := by have := t.isLt; omega
  have hin : (cfg0.win 8).xinj (grid0.coords t) j = ix2 (⟨(j 0).val, hj0⟩ : Fin 2000) (⟨(j 1).val, hj1⟩ : Fin 128) :=
    funext fun a => Fin.ext (by
      match a with
      | ⟨0, _⟩ => rfl
      | ⟨1, _⟩ => rfl)
  have hout : ((cfg0.win 8).blk t).view.emb j
      = ix2 (⟨t.val * 2000 + (j 0).val, by omega⟩ : Fin 50000) (⟨(j 1).val, hj1⟩ : Fin 128) :=
    funext fun a => Fin.ext (by
      match a with
      | ⟨0, _⟩ => show win0_8.index t (0 : Fin 2) * 2000 + 1 * (j 0).val = t.val * 2000 + (j 0).val; omega
      | ⟨1, _⟩ => show win0_8.index t (1 : Fin 2) * 128 + 1 * (j 1).val = (j 1).val; omega)
  rw [View.read_apply]
  show k0_pay1 (F := Ideal) (iblk m c 0 t) (iblk m c 1 t) (iblk m c 2 t) (iblk m c 3 t) (iblk m c 4 t) (iblk m c 5 t) (iblk m c 6 t)
      (iblk m c 7 t) ((cfg0.win 8).xinj (grid0.coords t) j) = G (((cfg0.win 8).blk t).view.emb j)
  rw [hin, hout]
  exact hG _ _ _ rfl

/-- An entry of the output is in point t's block exactly when its coordinates are in the block's ranges. -/
theorem mem_rows (t : Fin cfg0.N) (i : S50000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v41).slice (win0_8.rect t)).set ↔ _
  rw [View.set_slice_whole, Rect.mem_set_unit]
  exact Iff.rfl

/-- Row r of the output lies in the block of point r / 2000. -/
theorem covered (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by omega⟩, rfl⟩
  have e := block_places t
  refine ⟨t, flush0_8 t, ?_⟩
  rw [mem_rows]
  intro a
  match a with
  | ⟨0, _⟩ =>
    show win0_8.index t (0 : Fin 2) * 2000 ≤ (i 0).val ∧ (i 0).val < win0_8.index t (0 : Fin 2) * 2000 + 2000
    omega
  | ⟨1, _⟩ =>
    show win0_8.index t (1 : Fin 2) * 128 ≤ (i 1).val ∧ (i 1).val < win0_8.index t (1 : Fin 2) * 128 + 128
    omega

/-- The output as one function of the arrays the call is given. -/
def outArray (c : Dev nD) : S50000x128.Idx → Elt Ideal .f32 :=
  Cert.TwoHop.layer (V m c main_arg0) (V m c main_v22) (V m c main_v32) (V m c main_v10) (V m c main_v35) (V m c main_v37)
    (V m c main_v39) (V m c main_v40)

/-- What point t writes back is rows 2000t … 2000t+1999 of `outArray`. -/
theorem flushed_eq (c : Dev nD) (t : Fin cfg0.N) :
    (dats m 0 c).flushed 8 t = ((cfg0.win 8).blk t).view.read (Elt Ideal) (outArray m c) :=
  flushed_of m c t (outArray m c) fun p q r hr =>
    stored_eq (V m c main_arg0) (V m c main_v22) (V m c main_v32) (V m c main_v10) (V m c main_v35) (V m c main_v37)
      (V m c main_v39) (V m c main_v40) t p q r hr

/-- So the output array ends holding `outArray`. -/
theorem final (c : Dev nD) : (dats m 0 c).arrAt 8 cfg0.N = outArray m c :=
  (dats m 0 c).arrAt_eq_of_cover 8 (outArray m c) (fun t _ => flushed_eq m c t) covered

/-- The kernel's run, read: the output at `outArray`, the arguments unchanged. -/
theorem run : θ_run defs (onTc (τ := τ) (main (F := Ideal))) ⟨m, fun _ => 0, ρ⟩ fun r => ∀ c : Dev nD,
      r.2.mem ((c : Thread nD τ).loc main_v41) = outArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Tile

end
-- ==== Proof.LibColumnForms.lean ====
/-
  A vector laid out as a one-column matrix, by a cast or by a broadcast along a new unit axis: one and the same array.

  Both forms hold entry p of the vector at (p, 0): the cast because the row-major order is unchanged, the broadcast
  because the vector's only axis is sent to the rows. Array programs use the two interchangeably (a reshape to [M, 1]
  against an index with a new trailing axis), so a value computed through one meets a value computed through the other.
-/
import Idealize.ShloMosaic.Lib.Pipeline.Value
import Idealize.ShloMosaic.Lib.ValueIdx
import proofs.«148852_j936302871073_2_alg».proof.Proof.LibKeepdims

namespace Cert.ColumnForms

open Idealize.ShloMosaic Idealize.ShloMosaic.ValueIdx

variable {α : Type}

/-- A vector broadcast along a new unit axis to an M x 1 column reads, at (p, u), the vector at p. -/
theorem bcast_col_apply {M : ℕ} (s : (⟨1, ![M]⟩ : Shape).Idx → α)
    (h : (⟨1, ![M]⟩ : Shape).BroadcastsInDim ⟨2, ![M, 1]⟩ (![0] : Fin 1 → Fin 2)) (p : Fin M) (u : Fin 1) :
    broadcastInDim ⟨2, ![M, 1]⟩ ![0] h s (ix2 p u) = s (ix1 p) :=
  broadcastInDim_apply ![0] h s (ix2 p u) (ix1 p) fun a => match a with
    | ⟨0, _⟩ => by
      show p.val = if M = 1 then 0 else p.val
      split
      · have := p.isLt; omega
      · rfl

/-- The cast and the broadcast give the same column. -/
theorem shapeCast_eq_bcast_col {M : ℕ} (s : (⟨1, ![M]⟩ : Shape).Idx → α)
    (hc : (⟨1, ![M]⟩ : Shape).ShapeCasts ⟨2, ![M, 1]⟩)
    (hb : (⟨1, ![M]⟩ : Shape).BroadcastsInDim ⟨2, ![M, 1]⟩ (![0] : Fin 1 → Fin 2)) :
    shapeCast ⟨2, ![M, 1]⟩ s hc = broadcastInDim ⟨2, ![M, 1]⟩ ![0] hb s := by
  funext i
  obtain ⟨p, u, rfl⟩ : ∃ (p : Fin M) (u : Fin 1), i = ix2 p u := ⟨i 0, i 1, eq_ix2 i⟩
  rw [Cert.Keepdims.shapeCast_a_a1_apply, bcast_col_apply]

end Cert.ColumnForms
-- ==== Proof.Prelude.lean ====
/-
  What the host operations before the call leave in the arrays the call is given.

  From x, the edge list E (a row of sources over a row of destinations), W and b the program computes, before the call:
  the count column d (for each node the number of edges arriving there, raised to at least 1), the one-hop mean
  h = (sum of x over the sources of the arriving edges) / d, the two-hop sum s (the same sum, of h), the three 128 x 128
  row blocks of W transposed — narrowed in format, which changes no value here — and b as a one-row matrix.
  The reference computes d, h and s by the same operations in the same order (it slices E a second time for the second
  hop, to the same effect); these lemmas therefore name each array by the reference's own stage of that value. The one
  difference of form: the reference makes d a column by a broadcast along a new axis, this program by a reshape — the
  same column (`Cert.ColumnForms.shapeCast_eq_bcast_col`).
-/
import proofs.«148852_j936302871073_2_alg».proof.Proof.Gen.KernelIdeal.Frame
import proofs.«148852_j936302871073_2_alg».proof.Proof.Gen.ReferenceIdeal.Read
import proofs.«148852_j936302871073_2_alg».proof.Proof.LibColumnForms
import Idealize.ShloMosaic.Lib.StableHlo.Run
import Idealize.ShloMosaic.PureOps.Ideal

noncomputable section

namespace Cert.KernelIdeal.Prelude

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- The node features x, as launched. -/
abbrev argX : S50000x128.Idx → Elt Ideal .f32 := m ((c : Thread nD τ).loc main_arg0)
/-- The edge list, as launched. -/
abbrev argE : (⟨S2x600000, .i32⟩ : BufTy).Contents (Elt Ideal) := m ((c : Thread nD τ).loc main_arg1)
/-- The weights W, as launched. -/
abbrev argW : S128x384.Idx → Elt Ideal .f32 := m ((c : Thread nD τ).loc main_arg2)
/-- The bias b, as launched. -/
abbrev argB : S128.Idx → Elt Ideal .f32 := m ((c : Thread nD τ).loc main_arg3)

/-- The count column is the reference's count vector, reshaped to a column. -/
theorem counts_eq : (V (F := Ideal) m c main_v10 : S50000x1.Idx → Elt Ideal .f32)
    = shapeCast S50000x1 (Cert.ReferenceIdeal.Read.val_main_v19 (F := Ideal) (argE m c)) shapeCasts_S50000_S50000x1 := by
  dsimp only [Gen.V, Gen.hostOps0]
  after_results_simp <;> rfl

/-- Dividing by the reshaped count column repeated across the row, or by the broadcast one: the reference's one-hop mean. -/
theorem mean_forms (x : S50000x128.Idx → Elt Ideal .f32) (ei : (⟨S2x600000, .i32⟩ : BufTy).Contents (Elt Ideal)) :
    Host.divf (F := Ideal) (φ := .f32) (Cert.ReferenceIdeal.Read.val_main_v13 (F := Ideal) x ei)
      (broadcastInDim S50000x128 ![0, 1] bcast_S50000x1_S50000x128_0_1
        (shapeCast S50000x1 (Cert.ReferenceIdeal.Read.val_main_v19 (F := Ideal) ei) shapeCasts_S50000_S50000x1))
      = Cert.ReferenceIdeal.Read.val_main_v22 (F := Ideal) x ei := by
  rw [Cert.ColumnForms.shapeCast_eq_bcast_col _ _ Cert.ReferenceIdeal.Facts₀.bcast_S50000_S50000x1_0]
  rfl

set_option maxRecDepth 8192 in
/-- The one-hop mean is the reference's. -/
theorem mean_eq : (V (F := Ideal) m c main_v22 : S50000x128.Idx → Elt Ideal .f32)
    = Cert.ReferenceIdeal.Read.val_main_v22 (F := Ideal) (argX m c) (argE m c) := by
  refine Eq.trans ?_ (mean_forms (argX m c) (argE m c))
  dsimp only [Gen.V, Gen.hostOps0]
  after_results_simp <;> rfl

set_option maxRecDepth 8192 in
/-- The two-hop sum is the reference's: the same gather and scatter-add, of the same one-hop mean. -/
theorem sum2_eq : (V (F := Ideal) m c main_v32 : S50000x128.Idx → Elt Ideal .f32)
    = Cert.ReferenceIdeal.Read.val_main_v36 (F := Ideal) (argX m c) (argE m c) := by
  have e : (V (F := Ideal) m c main_v32 : S50000x128.Idx → Elt Ideal .f32)
      = Host.scatterAdd (F := Ideal) (φ := .f32) scatter_S50000x128_S600000x1_S600000x128_1_0_0_1 (Cert.ReferenceIdeal.Read.val_main_v34 (F := Ideal))
          (Cert.ReferenceIdeal.Read.val_main_v35 (F := Ideal) (argE m c))
          (Host.gather gather_S50000x128_S600000x1_S600000x128_1_0_n_n_0_1_1128
            (Host.divf (F := Ideal) (φ := .f32) (Cert.ReferenceIdeal.Read.val_main_v13 (F := Ideal) (argX m c) (argE m c))
              (broadcastInDim S50000x128 ![0, 1] bcast_S50000x1_S50000x128_0_1
                (shapeCast S50000x1 (Cert.ReferenceIdeal.Read.val_main_v19 (F := Ideal) (argE m c)) shapeCasts_S50000_S50000x1)))
            (Cert.ReferenceIdeal.Read.val_main_v32 (F := Ideal) (argE m c))) := by
    dsimp only [Gen.V, Gen.hostOps0]
    after_results_simp <;> rfl
  rw [e, mean_forms]
  rfl

/-- The first weight block: rows 0 … 127 of W transposed. -/
theorem w₁_eq : (V (F := Ideal) m c main_v35 : S128x128.Idx → Elt Ideal .bf16)
    = truncf (F := Ideal) (φ := .f32) .bf16 (extractStridedSlice S128x128 ![0, 0] (Cert.ReferenceIdeal.Read.val_main_v47 (F := Ideal) (argW m c))
        slices_S384x128_S128x128_0_0) bitsLt_bf16_f32 := by
  dsimp only [Gen.V, Gen.hostOps0]
  after_results_simp <;> rfl

/-- The second weight block: rows 128 … 255 of W transposed. -/
theorem w₂_eq : (V (F := Ideal) m c main_v37 : S128x128.Idx → Elt Ideal .bf16)
    = truncf (F := Ideal) (φ := .f32) .bf16 (extractStridedSlice S128x128 ![128, 0] (Cert.ReferenceIdeal.Read.val_main_v47 (F := Ideal) (argW m c))
        slices_S384x128_S128x128_128_0) bitsLt_bf16_f32 := by
  dsimp only [Gen.V, Gen.hostOps0]
  after_results_simp <;> rfl

/-- The third weight block: rows 256 … 383 of W transposed. -/
theorem w₃_eq : (V (F := Ideal) m c main_v39 : S128x128.Idx → Elt Ideal .bf16)
    = truncf (F := Ideal) (φ := .f32) .bf16 (extractStridedSlice S128x128 ![256, 0] (Cert.ReferenceIdeal.Read.val_main_v47 (F := Ideal) (argW m c))
        slices_S384x128_S128x128_256_0) bitsLt_bf16_f32 := by
  dsimp only [Gen.V, Gen.hostOps0]
  after_results_simp <;> rfl

/-- The bias as a one-row matrix. -/
theorem bias_eq : (V (F := Ideal) m c main_v40 : S1x128.Idx → Elt Ideal .f32)
    = shapeCast S1x128 (argB m c) shapeCasts_S128_S1x128 := by
  dsimp only [Gen.V, Gen.hostOps0]
  after_results_simp <;> rfl

end Cert.KernelIdeal.Prelude

end
-- ==== Proof.LibSumBlocks.lean ====
/-
  A sum over three consecutive blocks of the same length.

  A finite sum indexed by 0 … 3n-1 is the sum of its first n terms, plus the sum of its next n terms, plus the sum of
  its last n terms. Only commutativity and associativity of the addition are used, so the statement holds in any
  commutative monoid — in particular on the extended reals, where a sum may contain infinities.
-/
import Mathlib.Algebra.BigOperators.Fin

namespace Cert.SumBlocks

/-- The three blocks, each entry named by its place inside its block. -/
theorem sum_three_blocks {A : Type*} [AddCommMonoid A] {n : ℕ} (f : Fin (n + n + n) → A) :
    ∑ k, f k = (∑ k : Fin n, f (Fin.castAdd n (Fin.castAdd n k)) + ∑ k : Fin n, f (Fin.castAdd n (Fin.natAdd n k)))
      + ∑ k : Fin n, f (Fin.natAdd (n + n) k) := by
  rw [Fin.sum_univ_add, Fin.sum_univ_add]

/-- The place of an entry of the first block in the whole range. -/
theorem val_first {n : ℕ} (k : Fin n) : (Fin.castAdd n (Fin.castAdd n k)).val = k.val := rfl

/-- The place of an entry of the second block in the whole range. -/
theorem val_second {n : ℕ} (k : Fin n) : (Fin.castAdd n (Fin.natAdd n k)).val = n + k.val := rfl

/-- The place of an entry of the third block in the whole range. -/
theorem val_third {n : ℕ} (k : Fin n) : (Fin.natAdd (n + n) k).val = n + n + k.val := rfl

end Cert.SumBlocks
-- ==== Proof.LibConcatThree.lean ====
/-
  Three matrices of the same height laid side by side, read at an entry.

  Joining an M x N₀, an M x N₁ and an M x N₂ matrix along the columns gives a matrix whose entry (p, q) is the first
  matrix's entry (p, q) when q < N₀, the second's entry (p, q - N₀) when N₀ ≤ q < N₀ + N₁, and the third's entry
  (p, q - N₀ - N₁) beyond that. Each case is stated with the column inside the piece given and its place in the joined
  matrix as a hypothesis.
-/
import Idealize.ShloMosaic.Lib.Pipeline.Value
import Idealize.ShloMosaic.Lib.ValueIdx

namespace Cert.ConcatThree

open Idealize.ShloMosaic Idealize.ShloMosaic.ValueIdx

variable {α : Type}

/-- A column of the first matrix. -/
theorem cols_first {M N₀ N₁ N₂ N : ℕ} (x₀ : (⟨2, ![M, N₀]⟩ : Shape).Idx → α) (x₁ : (⟨2, ![M, N₁]⟩ : Shape).Idx → α)
    (x₂ : (⟨2, ![M, N₂]⟩ : Shape).Idx → α)
    (h : Shape.Concatenates [(⟨2, ![M, N₀]⟩ : Shape), ⟨2, ![M, N₁]⟩, ⟨2, ![M, N₂]⟩] ⟨2, ![M, N]⟩ 1)
    (p : Fin M) (q : Fin N) (k : Fin N₀) (hq : k.val = q.val) :
    concatenate ⟨2, ![M, N]⟩ 1 [⟨⟨2, ![M, N₀]⟩, x₀⟩, ⟨⟨2, ![M, N₁]⟩, x₁⟩, ⟨⟨2, ![M, N₂]⟩, x₂⟩] h (ix2 p q) = x₀ (ix2 p k) :=
  concatenate_apply_piece 1 [⟨⟨2, ![M, N₀]⟩, x₀⟩, ⟨⟨2, ![M, N₁]⟩, x₁⟩, ⟨⟨2, ![M, N₂]⟩, x₂⟩] h (ix2 p q) 0 (by simp) ⟨2, ![M, N₀]⟩ x₀ rfl rfl 0 rfl (ix2 p k)
    (fun b hb => match b, hb with
      | ⟨0, _⟩, _ => rfl
      | ⟨1, _⟩, hb => (hb (Fin.ext rfl)).elim)
    (by show 0 + k.val = q.val; omega)

/-- A column of the second matrix. -/
theorem cols_second {M N₀ N₁ N₂ N : ℕ} (x₀ : (⟨2, ![M, N₀]⟩ : Shape).Idx → α) (x₁ : (⟨2, ![M, N₁]⟩ : Shape).Idx → α)
    (x₂ : (⟨2, ![M, N₂]⟩ : Shape).Idx → α)
    (h : Shape.Concatenates [(⟨2, ![M, N₀]⟩ : Shape), ⟨2, ![M, N₁]⟩, ⟨2, ![M, N₂]⟩] ⟨2, ![M, N]⟩ 1)
    (p : Fin M) (q : Fin N) (k : Fin N₁) (hq : N₀ + k.val = q.val) :
    concatenate ⟨2, ![M, N]⟩ 1 [⟨⟨2, ![M, N₀]⟩, x₀⟩, ⟨⟨2, ![M, N₁]⟩, x₁⟩, ⟨⟨2, ![M, N₂]⟩, x₂⟩] h (ix2 p q) = x₁ (ix2 p k) :=
  concatenate_apply_piece 1 [⟨⟨2, ![M, N₀]⟩, x₀⟩, ⟨⟨2, ![M, N₁]⟩, x₁⟩, ⟨⟨2, ![M, N₂]⟩, x₂⟩] h (ix2 p q) 1 (by simp) ⟨2, ![M, N₁]⟩ x₁ rfl rfl N₀ (by simp) (ix2 p k)
    (fun b hb => match b, hb with
      | ⟨0, _⟩, _ => rfl
      | ⟨1, _⟩, hb => (hb (Fin.ext rfl)).elim)
    hq

/-- A column of the third matrix. -/
theorem cols_third {M N₀ N₁ N₂ N : ℕ} (x₀ : (⟨2, ![M, N₀]⟩ : Shape).Idx → α) (x₁ : (⟨2, ![M, N₁]⟩ : Shape).Idx → α)
    (x₂ : (⟨2, ![M, N₂]⟩ : Shape).Idx → α)
    (h : Shape.Concatenates [(⟨2, ![M, N₀]⟩ : Shape), ⟨2, ![M, N₁]⟩, ⟨2, ![M, N₂]⟩] ⟨2, ![M, N]⟩ 1)
    (p : Fin M) (q : Fin N) (k : Fin N₂) (hq : N₀ + N₁ + k.val = q.val) :
    concatenate ⟨2, ![M, N]⟩ 1 [⟨⟨2, ![M, N₀]⟩, x₀⟩, ⟨⟨2, ![M, N₁]⟩, x₁⟩, ⟨⟨2, ![M, N₂]⟩, x₂⟩] h (ix2 p q) = x₂ (ix2 p k) :=
  concatenate_apply_piece 1 [⟨⟨2, ![M, N₀]⟩, x₀⟩, ⟨⟨2, ![M, N₁]⟩, x₁⟩, ⟨⟨2, ![M, N₂]⟩, x₂⟩] h (ix2 p q) 2 (by simp) ⟨2, ![M, N₂]⟩ x₂ rfl rfl (N₀ + N₁) (by simp) (ix2 p k)
    (fun b hb => match b, hb with
      | ⟨0, _⟩, _ => rfl
      | ⟨1, _⟩, hb => (hb (Fin.ext rfl)).elim)
    hq

end Cert.ConcatThree
-- ==== Proof.LibColRow.lean ====
/-
  A vector laid out as a column or as a row, in the forms array programs write it.

  A vector of M entries becomes an M x 1 column either by a cast (the row-major order is unchanged) or by a broadcast
  along a new unit axis; both are the function (p, 0) -> s(p) (`colOf`). Broadcasting that column across n columns
  gives, at (p, q), the entry s(p) (`colBroadcast_apply`). Likewise a vector of N entries becomes a 1 x N row by a
  cast; that row is the function (0, q) -> b(q) (`rowOf`).
-/
import Idealize.ShloMosaic.Lib.Pipeline.Value
import Idealize.ShloMosaic.Lib.ValueIdx
import Idealize.ShloMosaic.Lib.ValueLayout
import proofs.«148852_j936302871073_2_alg».proof.Proof.LibKeepdims

namespace Cert.ColRow

open Idealize.ShloMosaic Idealize.ShloMosaic.ValueIdx

variable {α : Type}

/-- A vector of M entries as an M x 1 column: entry (p, u) is the vector's entry p. -/
def colOf {M : ℕ} (s : (⟨1, ![M]⟩ : Shape).Idx → α) : (⟨2, ![M, 1]⟩ : Shape).Idx → α := fun i => s (ix1 (i 0))

theorem colOf_apply {M : ℕ} (s : (⟨1, ![M]⟩ : Shape).Idx → α) (p : Fin M) (u : Fin 1) : colOf s (ix2 p u) = s (ix1 p) := rfl

/-- A vector of N entries as a 1 x N row: entry (u, q) is the vector's entry q. -/
def rowOf {N : ℕ} (b : (⟨1, ![N]⟩ : Shape).Idx → α) : (⟨2, ![1, N]⟩ : Shape).Idx → α := fun i => b (ix1 (i 1))

theorem rowOf_apply {N : ℕ} (b : (⟨1, ![N]⟩ : Shape).Idx → α) (u : Fin 1) (q : Fin N) : rowOf b (ix2 u q) = b (ix1 q) := rfl

/-- The cast of a vector to a column is that column. -/
theorem shapeCast_col {M : ℕ} (s : (⟨1, ![M]⟩ : Shape).Idx → α) (h : (⟨1, ![M]⟩ : Shape).ShapeCasts ⟨2, ![M, 1]⟩) :
    shapeCast ⟨2, ![M, 1]⟩ s h = colOf s := by
  funext i
  obtain ⟨p, u, rfl⟩ : ∃ (p : Fin M) (u : Fin 1), i = ix2 p u := ⟨i 0, i 1, eq_ix2 i⟩
  exact Cert.Keepdims.shapeCast_a_a1_apply s h p u

/-- The cast of a vector to a row is that row. -/
theorem shapeCast_row {N : ℕ} (b : (⟨1, ![N]⟩ : Shape).Idx → α) (h : (⟨1, ![N]⟩ : Shape).ShapeCasts ⟨2, ![1, N]⟩) :
    shapeCast ⟨2, ![1, N]⟩ b h = rowOf b := by
  funext i
  obtain ⟨u, q, rfl⟩ : ∃ (u : Fin 1) (q : Fin N), i = ix2 u q := ⟨i 0, i 1, eq_ix2 i⟩
  exact shapeCast_a_1a_apply b h u q

/-- A vector made a column by a broadcast along a new unit axis, then repeated across n columns: entry (p, q) is the
    vector's entry p. -/
theorem colBroadcast_apply {M n : ℕ} (s : (⟨1, ![M]⟩ : Shape).Idx → α)
    (h₁ : (⟨1, ![M]⟩ : Shape).BroadcastsInDim ⟨2, ![M, 1]⟩ (![0] : Fin 1 → Fin 2))
    (h₂ : (⟨2, ![M, 1]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![M, 1]⟩ ![0] h₁ s) (ix2 p q) = s (ix1 p) := by
  refine (broadcastInDim_apply ![0, 1] h₂ _ (ix2 p q) (ix2 p (0 : Fin 1)) fun a => ?_).trans
    (broadcastInDim_apply ![0] h₁ s (ix2 p (0 : Fin 1)) (ix1 p) fun a => ?_)
  · match a with
    | ⟨0, _⟩ =>
      show p.val = if M = 1 then 0 else p.val
      split
      · have := p.isLt; omega
      · rfl
    | ⟨1, _⟩ => show (0 : ℕ) = if (1 : ℕ) = 1 then 0 else _; rw [if_pos rfl]
  · match a with
    | ⟨0, _⟩ =>
      show p.val = if M = 1 then 0 else p.val
      split
      · have := p.isLt; omega
      · rfl

end Cert.ColRow
-- ==== Proof.DenseThree.lean ====
/-
  A dense layer over three feature blocks laid side by side, entry by entry.

  Let x, h, g be M x 128 matrices and U a 384 x 128 matrix. Row p of [x | h | g] times column q of U is a sum of 384
  products; its first 128 terms pair x(p,·) with rows 0 … 127 of U, the next 128 pair h(p,·) with rows 128 … 255, the last
  128 pair g(p,·) with rows 256 … 383. So the product is x·U₀ + h·U₁ + g·U₂ with U₀, U₁, U₂ the three 128-row slices of U
  — a regrouping of one finite sum, valid over the extended reals as it is (`three_products`).
  Two layout facts beside it: a matrix divided entrywise by a count vector broadcast first to a column and then across
  the columns reads, at (p, k), as the entry over the count of row p — also when the column is made by a cast
  (`quotient_entry`); and a bias vector broadcast to a row and then down the rows reads, at (p, q), as its entry q, which
  is also entry (0, q) of the vector cast to a one-row matrix (`bias_entry`).
-/
import proofs.«148852_j936302871073_2_alg».proof.Proof.LibSumBlocks
import proofs.«148852_j936302871073_2_alg».proof.Proof.LibConcatThree
import proofs.«148852_j936302871073_2_alg».proof.Proof.LibColRow
import proofs.«148852_j936302871073_2_alg».proof.Proof.LibRank2
import Idealize.ShloMosaic.Lib.ValueLayout
import Idealize.ShloMosaic.PureOps.Ideal

noncomputable section

namespace Cert.TwoHop

open Idealize.ShloMosaic Idealize.ShloMosaic.ValueIdx

/-- Row p of [x | h | g] times column q of U, as the three products with U's 128-row slices. -/
theorem three_products {M : ℕ} (x h g : (⟨2, ![M, 128]⟩ : Shape).Idx → EReal) (U : (⟨2, ![384, 128]⟩ : Shape).Idx → EReal)
    (hc : Shape.Concatenates [(⟨2, ![M, 128]⟩ : Shape), ⟨2, ![M, 128]⟩, ⟨2, ![M, 128]⟩] ⟨2, ![M, 384]⟩ 1)
    (h₀ : (⟨2, ![384, 128]⟩ : Shape).Slices ![0, 0] ⟨2, ![128, 128]⟩)
    (h₁ : (⟨2, ![384, 128]⟩ : Shape).Slices ![128, 0] ⟨2, ![128, 128]⟩)
    (h₂ : (⟨2, ![384, 128]⟩ : Shape).Slices ![256, 0] ⟨2, ![128, 128]⟩) (p : Fin M) (q : Fin 128) :
    ∑ k : Fin 384, concatenate ⟨2, ![M, 384]⟩ 1 [⟨⟨2, ![M, 128]⟩, x⟩, ⟨⟨2, ![M, 128]⟩, h⟩, ⟨⟨2, ![M, 128]⟩, g⟩] hc (ix2 p k)
        * U (ix2 k q)
      = (∑ k : Fin 128, x (ix2 p k) * extractStridedSlice ⟨2, ![128, 128]⟩ ![0, 0] U h₀ (ix2 k q)
          + ∑ k : Fin 128, h (ix2 p k) * extractStridedSlice ⟨2, ![128, 128]⟩ ![128, 0] U h₁ (ix2 k q))
        + ∑ k : Fin 128, g (ix2 p k) * extractStridedSlice ⟨2, ![128, 128]⟩ ![256, 0] U h₂ (ix2 k q) := by
  refine (Cert.SumBlocks.sum_three_blocks (n := 128) _).trans ?_
  refine congrArg₂ (· + ·) (congrArg₂ (· + ·) (Finset.sum_congr rfl fun k _ => ?_) (Finset.sum_congr rfl fun k _ => ?_))
    (Finset.sum_congr rfl fun k _ => ?_)
  · refine congrArg₂ (· * ·) (Cert.ConcatThree.cols_first x h g hc p _ k rfl) ?_
    exact (extractStridedSlice_apply ![0, 0] U h₀ (ix2 k q) (ix2 (Fin.castAdd 128 (Fin.castAdd 128 k)) q) fun a =>
      match a with
      | ⟨0, _⟩ => by show k.val = 0 + k.val; omega
      | ⟨1, _⟩ => by show q.val = 0 + q.val; omega).symm
  · refine congrArg₂ (· * ·) (Cert.ConcatThree.cols_second x h g hc p _ k rfl) ?_
    exact (extractStridedSlice_apply ![128, 0] U h₁ (ix2 k q) (ix2 (Fin.castAdd 128 (Fin.natAdd 128 k)) q) fun a =>
      match a with
      | ⟨0, _⟩ => by show 128 + k.val = 128 + k.val; rfl
      | ⟨1, _⟩ => by show q.val = 0 + q.val; omega).symm
  · refine congrArg₂ (· * ·) (Cert.ConcatThree.cols_third x h g hc p _ k rfl) ?_
    exact (extractStridedSlice_apply ![256, 0] U h₂ (ix2 k q) (ix2 (Fin.natAdd (128 + 128) k) q) fun a =>
      match a with
      | ⟨0, _⟩ => by show 128 + 128 + k.val = 256 + k.val; omega
      | ⟨1, _⟩ => by show q.val = 0 + q.val; omega).symm

/-- A matrix over a count vector repeated along each row, at an entry; the count column read off the cast form. -/
theorem quotient_entry {M n : ℕ} (s : FVec Ideal ⟨2, ![M, n]⟩ .f32) (d : FVec Ideal ⟨1, ![M]⟩ .f32)
    (h₁ : (⟨1, ![M]⟩ : Shape).BroadcastsInDim ⟨2, ![M, 1]⟩ (![0] : Fin 1 → Fin 2))
    (h₂ : (⟨2, ![M, 1]⟩ : Shape).BroadcastsInDim ⟨2, ![M, n]⟩ (![0, 1] : Fin 2 → Fin 2))
    (hc : (⟨1, ![M]⟩ : Shape).ShapeCasts ⟨2, ![M, 1]⟩) (p : Fin M) (k : Fin n) :
    Host.divf s (broadcastInDim ⟨2, ![M, n]⟩ ![0, 1] h₂ (broadcastInDim ⟨2, ![M, 1]⟩ ![0] h₁ d)) (ix2 p k)
      = Ideal.div (s (ix2 p k)) (shapeCast ⟨2, ![M, 1]⟩ d hc (ix2 p (0 : Fin 1))) := by
  show Ideal.div (s (ix2 p k)) (broadcastInDim ⟨2, ![M, n]⟩ ![0, 1] h₂ (broadcastInDim ⟨2, ![M, 1]⟩ ![0] h₁ d) (ix2 p k)) = _
  rw [Cert.ColRow.colBroadcast_apply, Cert.Keepdims.shapeCast_a_a1_apply]

/-- A bias vector repeated down the rows, at an entry; the same entry read off the vector cast to a one-row matrix. -/
theorem bias_entry {M n : ℕ} (b : (⟨1, ![n]⟩ : Shape).Idx → EReal)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2))
    (hc : (⟨1, ![n]⟩ : Shape).ShapeCasts ⟨2, ![1, n]⟩) (p : Fin M) (q : Fin n) :
    broadcastInDim ⟨2, ![M, n]⟩ ![0, 1] h₂ (broadcastInDim ⟨2, ![1, n]⟩ ![1] h₁ b) (ix2 p q)
      = shapeCast ⟨2, ![1, n]⟩ b hc (ix2 (0 : Fin 1) q) := by
  rw [Cert.Rank2.rowBias_apply, shapeCast_a_1a_apply]

end Cert.TwoHop

end
-- ==== Proof.Bridge.lean ====
/-
  The reference computes the layer of the same arrays.

  The reference joins x, the one-hop mean h and the two-hop mean g = s / d side by side into a 50000 x 384 matrix,
  multiplies it by W transposed (384 x 128) and adds b to every row. Entry (p, q) is a sum of 384 products plus b(q).
  Cut into its three runs of 128 terms the sum is x(p,·)·U₀ + h(p,·)·U₁ + g(p,·)·U₂ with U₀, U₁, U₂ the 128-row slices
  of W transposed (`Cert.TwoHop.three_products`) — exactly the three products the tile body adds, with the same
  blocks of W; g(p, k) is s(p, k) over the count of row p, which is what the body divides by; and b(q) is entry (0, q) of
  the bias row the body repeats. So the reference's result is `Cert.TwoHop.layer` of the arrays the call is given.
-/
import proofs.«148852_j936302871073_2_alg».proof.Proof.Prelude
import proofs.«148852_j936302871073_2_alg».proof.Proof.Layer
import proofs.«148852_j936302871073_2_alg».proof.Proof.DenseThree

noncomputable section

namespace Cert.TwoHop

open Cert.KernelIdeal Cert.KernelIdeal.Facts₀ Idealize.ShloMosaic Idealize.ShloMosaic.ValueIdx

/-- The reference counts the arriving edges once per hop: the same vector both times. -/
theorem counts_again (ei : (⟨S2x600000, .i32⟩ : BufTy).Contents (Elt Ideal)) :
    Cert.ReferenceIdeal.Read.val_main_v42 (F := Ideal) ei = Cert.ReferenceIdeal.Read.val_main_v19 (F := Ideal) ei := rfl

/-- The two-hop mean at an entry: the two-hop sum over the count of the row. -/
theorem mean2_entry (x : S50000x128.Idx → Elt Ideal .f32) (ei : (⟨S2x600000, .i32⟩ : BufTy).Contents (Elt Ideal))
    (p : Fin 50000) (k : Fin 128) :
    Cert.ReferenceIdeal.Read.val_main_v45 (F := Ideal) x ei (ix2 p k)
      = Ideal.div (Cert.ReferenceIdeal.Read.val_main_v36 (F := Ideal) x ei (ix2 p k))
          (shapeCast S50000x1 (Cert.ReferenceIdeal.Read.val_main_v19 (F := Ideal) ei) shapeCasts_S50000_S50000x1 (ix2 p (0 : Fin 1))) := by
  rw [← counts_again]
  exact quotient_entry (Cert.ReferenceIdeal.Read.val_main_v36 (F := Ideal) x ei) (Cert.ReferenceIdeal.Read.val_main_v42 (F := Ideal) ei)
    Cert.ReferenceIdeal.Facts₀.bcast_S50000_S50000x1_0 Cert.ReferenceIdeal.Facts₀.bcast_S50000x1_S50000x128_0_1 shapeCasts_S50000_S50000x1 p k

/-- The bias the reference adds at an entry: entry (0, q) of b as a one-row matrix. -/
theorem bias_ref_entry (b : S128.Idx → Elt Ideal .f32) (p : Fin 50000) (q : Fin 128) :
    Cert.ReferenceIdeal.Read.val_main_v50 (F := Ideal) b (ix2 p q) = shapeCast S1x128 b shapeCasts_S128_S1x128 (ix2 (0 : Fin 1) q) :=
  bias_entry b Cert.ReferenceIdeal.Facts₀.bcast_S128_S1x128_1 Cert.ReferenceIdeal.Facts₀.bcast_S1x128_S50000x128_0_1 shapeCasts_S128_S1x128 p q

/-- The reference's matrix product at an entry, as the three products with the 128-row slices of W transposed. -/
theorem product_ref_entry (x : S50000x128.Idx → Elt Ideal .f32) (ei : (⟨S2x600000, .i32⟩ : BufTy).Contents (Elt Ideal))
    (W : S128x384.Idx → Elt Ideal .f32) (p : Fin 50000) (q : Fin 128) :
    Cert.ReferenceIdeal.Read.val_main_v48 (F := Ideal) x ei W (ix2 p q)
      = (∑ k : Fin 128, x (ix2 p k)
            * extractStridedSlice S128x128 ![0, 0] (Cert.ReferenceIdeal.Read.val_main_v47 (F := Ideal) W) slices_S384x128_S128x128_0_0 (ix2 k q)
          + ∑ k : Fin 128, Cert.ReferenceIdeal.Read.val_main_v22 (F := Ideal) x ei (ix2 p k)
            * extractStridedSlice S128x128 ![128, 0] (Cert.ReferenceIdeal.Read.val_main_v47 (F := Ideal) W) slices_S384x128_S128x128_128_0 (ix2 k q))
        + ∑ k : Fin 128, Cert.ReferenceIdeal.Read.val_main_v45 (F := Ideal) x ei (ix2 p k)
            * extractStridedSlice S128x128 ![256, 0] (Cert.ReferenceIdeal.Read.val_main_v47 (F := Ideal) W) slices_S384x128_S128x128_256_0 (ix2 k q) := by
  rw [Cert.ReferenceIdeal.Read.val_main_v48_apply]
  have hl : ∀ k : Fin 384, Cert.ReferenceIdeal.Read.lidx_main_v48 (ix2 p q) k = ix2 p k := fun k => funext fun a => Fin.ext (by
    match a with
    | ⟨0, _⟩ => rfl
    | ⟨1, _⟩ => rfl)
  have hr : ∀ k : Fin 384, Cert.ReferenceIdeal.Read.ridx_main_v48 (ix2 p q) k = ix2 k q := fun k => funext fun a => Fin.ext (by
    match a with
    | ⟨0, _⟩ => rfl
    | ⟨1, _⟩ => rfl)
  simp only [hl, hr]
  exact three_products x (Cert.ReferenceIdeal.Read.val_main_v22 (F := Ideal) x ei) (Cert.ReferenceIdeal.Read.val_main_v45 (F := Ideal) x ei)
    (Cert.ReferenceIdeal.Read.val_main_v47 (F := Ideal) W) Cert.ReferenceIdeal.Facts₀.concatenates_S50000x128_S50000x128_S50000x128_S50000x384_d1
    slices_S384x128_S128x128_0_0 slices_S384x128_S128x128_128_0 slices_S384x128_S128x128_256_0 p q

/-- The reference's result at an entry is the layer's. -/
theorem reference_entry (x : S50000x128.Idx → Elt Ideal .f32) (ei : (⟨S2x600000, .i32⟩ : BufTy).Contents (Elt Ideal))
    (W : S128x384.Idx → Elt Ideal .f32) (b : S128.Idx → Elt Ideal .f32) (p : Fin 50000) (q : Fin 128) :
    Cert.ReferenceIdeal.Read.val_main_v51 (F := Ideal) x ei W b (ix2 p q)
      = layer x (Cert.ReferenceIdeal.Read.val_main_v22 (F := Ideal) x ei) (Cert.ReferenceIdeal.Read.val_main_v36 (F := Ideal) x ei)
          (shapeCast S50000x1 (Cert.ReferenceIdeal.Read.val_main_v19 (F := Ideal) ei) shapeCasts_S50000_S50000x1)
          (truncf (F := Ideal) (φ := .f32) .bf16 (extractStridedSlice S128x128 ![0, 0] (Cert.ReferenceIdeal.Read.val_main_v47 (F := Ideal) W)
            slices_S384x128_S128x128_0_0) bitsLt_bf16_f32)
          (truncf (F := Ideal) (φ := .f32) .bf16 (extractStridedSlice S128x128 ![128, 0] (Cert.ReferenceIdeal.Read.val_main_v47 (F := Ideal) W)
            slices_S384x128_S128x128_128_0) bitsLt_bf16_f32)
          (truncf (F := Ideal) (φ := .f32) .bf16 (extractStridedSlice S128x128 ![256, 0] (Cert.ReferenceIdeal.Read.val_main_v47 (F := Ideal) W)
            slices_S384x128_S128x128_256_0) bitsLt_bf16_f32)
          (shapeCast S1x128 b shapeCasts_S128_S1x128) (ix2 p q) := by
  refine Eq.trans ?_ (layer_apply _ _ _ _ _ _ _ _ p q).symm
  have e : Cert.ReferenceIdeal.Read.val_main_v51 (F := Ideal) x ei W b (ix2 p q)
      = Cert.ReferenceIdeal.Read.val_main_v48 (F := Ideal) x ei W (ix2 p q) + Cert.ReferenceIdeal.Read.val_main_v50 (F := Ideal) b (ix2 p q) := rfl
  refine e.trans (congrArg₂ (· + ·) ((product_ref_entry x ei W p q).trans ?_) (bias_ref_entry b p q))
  exact congrArg₂ (· + ·)
    (congrArg₂ (· + ·) (Finset.sum_congr rfl fun k _ => rfl) (Finset.sum_congr rfl fun k _ => rfl))
    (Finset.sum_congr rfl fun k _ => congrArg₂ (· * ·) (mean2_entry x ei p k) rfl)

/-- The reference's result is the layer of the arrays the call is given. -/
theorem reference_eq (x : S50000x128.Idx → Elt Ideal .f32) (ei : (⟨S2x600000, .i32⟩ : BufTy).Contents (Elt Ideal))
    (W : S128x384.Idx → Elt Ideal .f32) (b : S128.Idx → Elt Ideal .f32) :
    Cert.ReferenceIdeal.Read.val_main_v51 (F := Ideal) x ei W b
      = layer x (Cert.ReferenceIdeal.Read.val_main_v22 (F := Ideal) x ei) (Cert.ReferenceIdeal.Read.val_main_v36 (F := Ideal) x ei)
          (shapeCast S50000x1 (Cert.ReferenceIdeal.Read.val_main_v19 (F := Ideal) ei) shapeCasts_S50000_S50000x1)
          (truncf (F := Ideal) (φ := .f32) .bf16 (extractStridedSlice S128x128 ![0, 0] (Cert.ReferenceIdeal.Read.val_main_v47 (F := Ideal) W)
            slices_S384x128_S128x128_0_0) bitsLt_bf16_f32)
          (truncf (F := Ideal) (φ := .f32) .bf16 (extractStridedSlice S128x128 ![128, 0] (Cert.ReferenceIdeal.Read.val_main_v47 (F := Ideal) W)
            slices_S384x128_S128x128_128_0) bitsLt_bf16_f32)
          (truncf (F := Ideal) (φ := .f32) .bf16 (extractStridedSlice S128x128 ![256, 0] (Cert.ReferenceIdeal.Read.val_main_v47 (F := Ideal) W)
            slices_S384x128_S128x128_256_0) bitsLt_bf16_f32)
          (shapeCast S1x128 b shapeCasts_S128_S1x128) := by
  funext i
  obtain ⟨p, q, rfl⟩ : ∃ (p : Fin 50000) (q : Fin 128), i = ix2 p q := ⟨i 0, i 1, eq_ix2 i⟩
  exact reference_entry x ei W b p q

end Cert.TwoHop

end
-- ==== Proof.lean ====
/-
  A two-hop graph convolution layer: the tile kernel against its array reference, over the extended reals.

  Both programs first compute, by the same host operations, the count d of edges arriving at each node (at least 1), the
  one-hop mean h = (sum of x over the sources of the arriving edges) / d and the two-hop sum s (the same sum, of h).
  The reference then forms g = s / d, joins [x | h | g] (50000 x 384), multiplies by W transposed and adds b.
  The kernel instead hands x, h, s, the column d, the three 128-row blocks of W transposed and b to a tiled call: grid
  point t takes rows 2000t … 2000t+1999, divides its rows of s by its rows of d, multiplies its three row blocks by the
  three weight blocks into zero accumulators, adds the products and the bias, and writes those rows of the output.

  The two results are equal entry by entry: the reference's sum of 384 products is its three runs of 128 products
  added up — a regrouping of one finite sum, which needs only that addition is commutative and associative, so it
  holds on the extended reals without any finiteness of the inputs — and those three runs are the kernel's three
  products with the same blocks of W; the quotient s / d and the bias are the same entries read through different
  layouts; narrowing a format changes no value here.

  Modules: `Layer` (the common function), `Payload` (the body's stored value at an entry), `BlockReads`, `WriteBack`,
  `Cover` (from the 25 row blocks to the whole output, and the kernel's run), `Prelude` (what the host operations
  before the call leave in each array, in the reference's own stages), `DenseThree` and `Bridge` (the reference at an
  entry). The frames are the generated ones; the idealization rewrote nothing, so there is nothing to preserve.
-/
import proofs.«148852_j936302871073_2_alg».proof.Defs
import proofs.«148852_j936302871073_2_alg».proof.Proof.Gen.Kernel
import proofs.«148852_j936302871073_2_alg».proof.Proof.Gen.Kernel.Skeleton
import proofs.«148852_j936302871073_2_alg».proof.Proof.Gen.Kernel.Launch
import proofs.«148852_j936302871073_2_alg».proof.Proof.Gen.Kernel.Points
import proofs.«148852_j936302871073_2_alg».proof.Proof.Gen.Kernel.Frame
import proofs.«148852_j936302871073_2_alg».proof.Proof.Gen.KernelIdeal
import proofs.«148852_j936302871073_2_alg».proof.Proof.Gen.KernelIdeal.Skeleton
import proofs.«148852_j936302871073_2_alg».proof.Proof.Gen.KernelIdeal.Launch
import proofs.«148852_j936302871073_2_alg».proof.Proof.Gen.KernelIdeal.Points
import proofs.«148852_j936302871073_2_alg».proof.Proof.Gen.KernelIdeal.Frame
import proofs.«148852_j936302871073_2_alg».proof.Proof.Gen.ReferenceIdeal
import proofs.«148852_j936302871073_2_alg».proof.Proof.Gen.KernelIdeal.Value
import proofs.«148852_j936302871073_2_alg».proof.Proof.Gen.ReferenceIdeal.Run
import proofs.«148852_j936302871073_2_alg».proof.Proof.Gen.ReferenceIdeal.Read
import proofs.«148852_j936302871073_2_alg».proof.Proof.Gen.Pre_finite_inputs
import proofs.«148852_j936302871073_2_alg».proof.Proof.Cover
import proofs.«148852_j936302871073_2_alg».proof.Proof.Prelude
import proofs.«148852_j936302871073_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's output, with each array the call is given named by what the host operations before it computed. -/
theorem outArray_eq (m : (ℓ : Loc Cert.KernelIdeal.nD Cert.KernelIdeal.τ Cert.KernelIdeal.sig) → Buf (Elt Ideal) ℓ)
    (c : Dev Cert.KernelIdeal.nD) :
    Cert.KernelIdeal.Tile.outArray m c
      = Cert.TwoHop.layer (Cert.KernelIdeal.Prelude.argX m c)
          (Cert.ReferenceIdeal.Read.val_main_v22 (F := Ideal) (Cert.KernelIdeal.Prelude.argX m c) (Cert.KernelIdeal.Prelude.argE m c))
          (Cert.ReferenceIdeal.Read.val_main_v36 (F := Ideal) (Cert.KernelIdeal.Prelude.argX m c) (Cert.KernelIdeal.Prelude.argE m c))
          (shapeCast Cert.KernelIdeal.S50000x1 (Cert.ReferenceIdeal.Read.val_main_v19 (F := Ideal) (Cert.KernelIdeal.Prelude.argE m c))
            Cert.KernelIdeal.Facts₀.shapeCasts_S50000_S50000x1)
          (truncf (F := Ideal) (φ := .f32) .bf16 (extractStridedSlice Cert.KernelIdeal.S128x128 ![0, 0]
            (Cert.ReferenceIdeal.Read.val_main_v47 (F := Ideal) (Cert.KernelIdeal.Prelude.argW m c)) Cert.KernelIdeal.Facts₀.slices_S384x128_S128x128_0_0)
            Cert.KernelIdeal.Facts₀.bitsLt_bf16_f32)
          (truncf (F := Ideal) (φ := .f32) .bf16 (extractStridedSlice Cert.KernelIdeal.S128x128 ![128, 0]
            (Cert.ReferenceIdeal.Read.val_main_v47 (F := Ideal) (Cert.KernelIdeal.Prelude.argW m c)) Cert.KernelIdeal.Facts₀.slices_S384x128_S128x128_128_0)
            Cert.KernelIdeal.Facts₀.bitsLt_bf16_f32)
          (truncf (F := Ideal) (φ := .f32) .bf16 (extractStridedSlice Cert.KernelIdeal.S128x128 ![256, 0]
            (Cert.ReferenceIdeal.Read.val_main_v47 (F := Ideal) (Cert.KernelIdeal.Prelude.argW m c)) Cert.KernelIdeal.Facts₀.slices_S384x128_S128x128_256_0)
            Cert.KernelIdeal.Facts₀.bitsLt_bf16_f32)
          (shapeCast Cert.KernelIdeal.S1x128 (Cert.KernelIdeal.Prelude.argB m c) Cert.KernelIdeal.Facts₀.shapeCasts_S128_S1x128) := by
  unfold Cert.KernelIdeal.Tile.outArray
  rw [Cert.KernelIdeal.Gen.V_main_arg0 m c, Cert.KernelIdeal.Prelude.mean_eq m c, Cert.KernelIdeal.Prelude.sum2_eq m c, Cert.KernelIdeal.Prelude.counts_eq m c,
    Cert.KernelIdeal.Prelude.w₁_eq m c, Cert.KernelIdeal.Prelude.w₂_eq m c, Cert.KernelIdeal.Prelude.w₃_eq m c, Cert.KernelIdeal.Prelude.bias_eq m c]

/-- From memories that agree on the four arguments both programs run and end with the same output array: the layer of
    x, the one-hop mean, the two-hop sum, the counts, the three blocks of W transposed and b. -/
theorem algebraic : Cert.algebraic_KernelIdeal_ReferenceIdeal := by
  intro m ρ m' ρ' _ hagree
  refine ⟨fun c => Cert.KernelIdeal.Tile.outArray m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.1, (hagree c).2.2.1, (hagree c).2.2.2]
  exact (Cert.TwoHop.reference_eq _ _ _ _).trans (outArray_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
